-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40 .f32) (main_v33 : IVec S_ 1) : IVec S_ 1 :=
  let main_v34 : FVec F S40 .f32 := Host.absf main_arg7
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x40 .f32) (main_arg7 : FVec F S40 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x40 .f32 := Host.absf main_arg6
  let main_cst_10 : FVec F S_ .f32 := constant S_ .f32 0x7F800000#32
  let main_v30 : FVec F S512x40 .f32 := broadcastInDim S512x40 ![] bcast_S_S512x40 main_cst_10
  let main_v31 : IVec S512x40 1 := cmpf .olt main_v29 main_v30
  let main_c_11 : IVec S_ 1 := constantI S_ 1 1#1
  let main_v32 : IVec S_ 1 := (fun x v => Host.reduce IntOp.andi x v reducesTo_S512x40_S_d0_1 h_S_) main_v31 main_c_11
  let main_v33 : IVec S_ 1 := andi main_v28 main_v32
  fn_part2 (F := F) main_arg7 main_v33

def fn {F : FTy → Type} [FloatOps F] (main_arg0 : FVec F S10000x512 .f32) (main_arg1 : FVec F S10000x10000 .f32) (main_arg2 : FVec F S512x512 .f32) (main_arg3 : FVec F S512 .f32) (main_arg4 : FVec F S512x512 .f32) (main_arg5 : FVec F S512 .f32) (main_arg6 : FVec F S512x40 .f32) (main_arg7 : FVec F S40 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S1x512 : Shape := ⟨2, ![1, 512]⟩
abbrev S10000x40 : Shape := ⟨2, ![10000, 40]⟩
abbrev S1x40 : Shape := ⟨2, ![1, 40]⟩
abbrev S2000x512 : Shape := ⟨2, ![2000, 512]⟩
abbrev S200x10000 : Shape := ⟨2, ![200, 10000]⟩
abbrev S200x512 : Shape := ⟨2, ![200, 512]⟩
abbrev S400x10000 : Shape := ⟨2, ![400, 10000]⟩
abbrev S400x40 : Shape := ⟨2, ![400, 40]⟩
abbrev S400x512 : Shape := ⟨2, ![400, 512]⟩

abbrev nBuf : Space → Nat
  | .hbm => 19
  | .vmem => 27
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x40, .f32⟩
  | .hbm, ⟨7, _⟩ => ⟨S40, .f32⟩
  | .hbm, ⟨8, _⟩ => ⟨S512x512, .bf16⟩
  | .hbm, ⟨9, _⟩ => ⟨S10000x512, .bf16⟩
  | .hbm, ⟨10, _⟩ => ⟨S1x512, .f32⟩
  | .hbm, ⟨11, _⟩ => ⟨S512x512, .bf16⟩
  | .hbm, ⟨12, _⟩ => ⟨S10000x512, .bf16⟩
  | .hbm, ⟨13, _⟩ => ⟨S10000x10000, .bf16⟩
  | .hbm, ⟨14, _⟩ => ⟨S1x512, .f32⟩
  | .hbm, ⟨15, _⟩ => ⟨S512x40, .bf16⟩
  | .hbm, ⟨16, _⟩ => ⟨S10000x40, .bf16⟩
  | .hbm, ⟨17, _⟩ => ⟨S1x40, .f32⟩
  | .hbm, ⟨18, _⟩ => ⟨S10000x40, .f32⟩
  | .local _ .vmem, ⟨0, _⟩ => ⟨S2000x512, .f32⟩
  | .local _ .vmem, ⟨1, _⟩ => ⟨S2000x512, .f32⟩
  | .local _ .vmem, ⟨2, _⟩ => ⟨S512x512, .bf16⟩
  | .local _ .vmem, ⟨3, _⟩ => ⟨S2000x512, .bf16⟩
  | .local _ .vmem, ⟨4, _⟩ => ⟨S2000x512, .bf16⟩
  | .local _ .vmem, ⟨5, _⟩ => ⟨S200x10000, .f32⟩
  | .local _ .vmem, ⟨6, _⟩ => ⟨S200x10000, .f32⟩
  | .local _ .vmem, ⟨7, _⟩ => ⟨S10000x512, .bf16⟩
  | .local _ .vmem, ⟨8, _⟩ => ⟨S1x512, .f32⟩
  | .local _ .vmem, ⟨9, _⟩ => ⟨S512x512, .bf16⟩
  | .local _ .vmem, ⟨10, _⟩ => ⟨S200x512, .bf16⟩
  | .local _ .vmem, ⟨11, _⟩ => ⟨S200x512, .bf16⟩
  | .local _ .vmem, ⟨12, _⟩ => ⟨S200x10000, .bf16⟩
  | .local _ .vmem, ⟨13, _⟩ => ⟨S200x10000, .bf16⟩
  | .local _ .vmem, ⟨14, _⟩ => ⟨S400x10000, .bf16⟩
  | .local _ .vmem, ⟨15, _⟩ => ⟨S400x10000, .bf16⟩
  | .local _ .vmem, ⟨16, _⟩ => ⟨S10000x512, .bf16⟩
  | .local _ .vmem, ⟨17, _⟩ => ⟨S1x512, .f32⟩
  | .local _ .vmem, ⟨18, _⟩ => ⟨S512x40, .bf16⟩
  | .local _ .vmem, ⟨19, _⟩ => ⟨S400x40, .bf16⟩
  | .local _ .vmem, ⟨20, _⟩ => ⟨S400x40, .bf16⟩
  | .local _ .vmem, ⟨21, _⟩ => ⟨S400x10000, .bf16⟩
  | .local _ .vmem, ⟨22, _⟩ => ⟨S400x10000, .bf16⟩
  | .local _ .vmem, ⟨23, _⟩ => ⟨S10000x40, .bf16⟩
  | .local _ .vmem, ⟨24, _⟩ => ⟨S1x40, .f32⟩
  | .local _ .vmem, ⟨25, _⟩ => ⟨S400x40, .f32⟩
  | .local _ .vmem, ⟨26, _⟩ => ⟨S400x40, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4_0 : Ref sig .tc := ⟨.hbm, 12, rfl⟩
abbrev main_call0_v4_1 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x40 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x40 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x40 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bitsLt_bf16_f32 : FTy.bits .bf16 < FTy.bits .f32
  shapeCasts_S512_S1x512 : S512.ShapeCasts S1x512
  shapeCasts_S40_S1x40 : S40.ShapeCasts S1x40
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S2000x512_S2000x512_0_0 : (Rect.unit (s := S2000x512) ![0, 0] S2000x512.size inb_S2000x512_S2000x512_0_0).PackedRows (EltTy.packing .bf16)
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  inb_S200x512_S200x512_0_0 : ∀ a, (![0, 0] : Fin 2 → Nat) a + S200x512.size a ≤ S200x512.size a
  h_S200x512 : 0 < S200x512.numel
  packedbf16_S200x512_S200x512_0_0 : (Rect.unit (s := S200x512) ![0, 0] S200x512.size inb_S200x512_S200x512_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  broadcasts_S1x512_S400x512 : S1x512.Broadcasts S400x512
  inb_S512x40_S512x40_0_0 : ∀ a, (![0, 0] : Fin 2 → Nat) a + S512x40.size a ≤ S512x40.size a
  h_S512x40 : 0 < S512x40.numel
  shapeCasts_S512x40_S512x40 : S512x40.ShapeCasts S512x40
  inb_S400x40_S400x40_0_0 : ∀ a, (![0, 0] : Fin 2 → Nat) a + S400x40.size a ≤ S400x40.size a
  h_S400x40 : 0 < S400x40.numel
  packedbf16_S400x40_S400x40_0_0 : (Rect.unit (s := S400x40) ![0, 0] S400x40.size inb_S400x40_S400x40_0_0).PackedRows (EltTy.packing .bf16)
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  dot_S2000x512_S512x512_S2000x512_1_0_0_1_n_n_wf : DotDims.WF S2000x512 S512x512 S2000x512 [1] [0] [0] [1] [] []
  dot_S200x10000_S10000x512_S200x512_1_0_0_1_n_n_wf : DotDims.WF S200x10000 S10000x512 S200x512 [1] [0] [0] [1] [] []
  dot_S200x512_S512x512_S200x512_1_0_0_1_n_n_wf : DotDims.WF S200x512 S512x512 S200x512 [1] [0] [0] [1] [] []
  dot_S400x10000_S10000x512_S400x512_1_0_0_1_n_n_wf : DotDims.WF S400x10000 S10000x512 S400x512 [1] [0] [0] [1] [] []
  dot_S400x512_S512x40_S400x40_1_0_0_1_n_n_wf : DotDims.WF S400x512 S512x40 S400x40 [1] [0] [0] [1] [] []
  dot_S400x10000_S10000x40_S400x40_1_0_0_1_n_n_wf : DotDims.WF S400x10000 S10000x40 S400x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S10000x512.size a
  hwx0_2 : ∀ i : grid0.Coords, EltTy.bits .bf16 = 32 ∨ (Rect.block (s := S10000x512) S2000x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x512.size a ≤ S10000x512.size a
  hwx1_4 : ∀ i : grid1.Coords, EltTy.bits .bf16 = 32 ∨ (Rect.block (s := S10000x512) S200x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x10000.size a ≤ S10000x10000.size a
  hwx1_5 : ∀ i : grid1.Coords, EltTy.bits .bf16 = 32 ∨ (Rect.block (s := S10000x10000) S200x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x512.size a ≤ S10000x512.size a
  hwx2_1 : ∀ i : grid2.Coords, EltTy.bits .bf16 = 32 ∨ (Rect.block (s := S10000x512) S10000x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x40.size a ≤ S512x40.size a
  hwx2_3 : ∀ i : grid2.Coords, EltTy.bits .bf16 = 32 ∨ (Rect.block (s := S512x40) S512x40.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x40.size a ≤ S10000x40.size a
  hwx2_4 : ∀ i : grid2.Coords, EltTy.bits .bf16 = 32 ∨ (Rect.block (s := S10000x40) S400x40.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x40.size a ≤ S10000x40.size a
  hwx3_1 : ∀ i : grid3.Coords, EltTy.bits .bf16 = 32 ∨ (Rect.block (s := S10000x40) S10000x40.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x40.size a ≤ S10000x40.size a
  hwx3_3 : ∀ i : grid3.Coords, EltTy.bits .f32 = 32 ∨ (Rect.block (s := S10000x40) S400x40.size (cc3_transform_3 i) (hinb3_3 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf
def dot_S200x512_S512x512_S200x512_1_0_0_1_n_n : DotDims S200x512 S512x512 S200x512 where
  lhsContracting := [1]
  rhsContracting := [0]
  lhsNonContracting := [0]
  rhsNonContracting := [1]
  lhsBatch := []
  rhsBatch := []
  wf := dot_S200x512_S512x512_S200x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S512x40_S400x40_1_0_0_1_n_n : DotDims S400x512 S512x40 S400x40 where
  lhsContracting := [1]
  rhsContracting := [0]
  lhsNonContracting := [0]
  rhsNonContracting := [1]
  lhsBatch := []
  rhsBatch := []
  wf := dot_S400x512_S512x40_S400x40_1_0_0_1_n_n_wf
def dot_S400x10000_S10000x40_S400x40_1_0_0_1_n_n : DotDims S400x10000 S10000x40 S400x40 where
  lhsContracting := [1]
  rhsContracting := [0]
  lhsNonContracting := [0]
  rhsNonContracting := [1]
  lhsBatch := []
  rhsBatch := []
  wf := dot_S400x10000_S10000x40_S400x40_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v3) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v4_0) S200x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v4_1) S200x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v4_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v4_0) S10000x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v5) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v6) S512x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v7) S400x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_call0_v4_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v7) S10000x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v8) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v0) S400x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S1x512 : Shape := ⟨2, ![1, 512]⟩
abbrev S_ : Shape := ⟨0, ![]⟩
abbrev S10000x40 : Shape := ⟨2, ![10000, 40]⟩
abbrev S1x40 : Shape := ⟨2, ![1, 40]⟩

abbrev nBuf : Space → Nat
  | .hbm => 29
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x40, .f32⟩
  | .hbm, ⟨7, _⟩ => ⟨S40, .f32⟩
  | .hbm, ⟨8, _⟩ => ⟨S10000x512, .f32⟩
  | .hbm, ⟨9, _⟩ => ⟨S10000x512, .f32⟩
  | .hbm, ⟨10, _⟩ => ⟨S1x512, .f32⟩
  | .hbm, ⟨11, _⟩ => ⟨S10000x512, .f32⟩
  | .hbm, ⟨12, _⟩ => ⟨S10000x512, .f32⟩
  | .hbm, ⟨13, _⟩ => ⟨S_, .f32⟩
  | .hbm, ⟨14, _⟩ => ⟨S10000x512, .f32⟩
  | .hbm, ⟨15, _⟩ => ⟨S10000x512, .f32⟩
  | .hbm, ⟨16, _⟩ => ⟨S10000x512, .f32⟩
  | .hbm, ⟨17, _⟩ => ⟨S10000x512, .f32⟩
  | .hbm, ⟨18, _⟩ => ⟨S1x512, .f32⟩
  | .hbm, ⟨19, _⟩ => ⟨S10000x512, .f32⟩
  | .hbm, ⟨20, _⟩ => ⟨S10000x512, .f32⟩
  | .hbm, ⟨21, _⟩ => ⟨S_, .f32⟩
  | .hbm, ⟨22, _⟩ => ⟨S10000x512, .f32⟩
  | .hbm, ⟨23, _⟩ => ⟨S10000x512, .f32⟩
  | .hbm, ⟨24, _⟩ => ⟨S10000x40, .f32⟩
  | .hbm, ⟨25, _⟩ => ⟨S10000x40, .f32⟩
  | .hbm, ⟨26, _⟩ => ⟨S1x40, .f32⟩
  | .hbm, ⟨27, _⟩ => ⟨S10000x40, .f32⟩
  | .hbm, ⟨28, _⟩ => ⟨S10000x40, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []
  dot_S10000x512_S512x40_S10000x40_1_0_0_1_n_n_wf : DotDims.WF S10000x512 S512x40 S10000x40 [1] [0] [0] [1] [] []
  dot_S10000x10000_S10000x40_S10000x40_1_0_0_1_n_n_wf : DotDims.WF S10000x10000 S10000x40 S10000x40 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x40_S10000x40_1_0_0_1_n_n : DotDims S10000x512 S512x40 S10000x40 where
  lhsContracting := [1]
  rhsContracting := [0]
  lhsNonContracting := [0]
  rhsNonContracting := [1]
  lhsBatch := []
  rhsBatch := []
  wf := dot_S10000x512_S512x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.Run.lean ====
/-
  The kernel program's run with its result named. The program is four launches among stretches of host operations; the
  buffer contents at each boundary are a fold from the launch memory (a host stretch applies its operations, a launch
  leaves its arrays at what its write-backs make of them and every other buffer alone). The run below is the frame's own
  launch over those segments, read at one more buffer: at the end the result buffer holds what the fold says, and every
  argument is as launched.
-/
import proofs.«160582_g51960514347202_cont_8to1_c_266_19_alg».proof.Proof.Gen.KernelIdeal.Frame

set_option maxRecDepth 16384

noncomputable section

namespace Cert.Gcn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the arguments as launched. -/
theorem run_named : θ_run defs (onTc (τ := τ) (main (F := F))) ⟨m, fun _ => 0, ρ⟩ (fun r => ∀ c : Dev nD,
      r.2.mem ((c.tc : Thread nD τ).loc main_v0) = W8 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.Gcn.Run

end
-- ==== Proof.LibPlainDot.lean ====
/-
  A plain matrix product M×K by K×N into a zero accumulator, read at an entry over the extended reals: entry (p, q)
  is the sum over c of lhs (p, c) · rhs (c, q). The contraction index, a one-axis multi-index, is re-indexed to its
  one coordinate.
-/
import Idealize.ShloMosaic.Lib.ValueIdx
import Idealize.ShloMosaic.PureOps.Ideal.Laws

namespace Cert.LibPlainDot

open Idealize.ShloMosaic Idealize.ShloMosaic.ValueIdx

/-- The left operand's index at result entry `(p, q)` and contraction coordinate `c` is `(p, c)`. -/
theorem plain_lhsIdx (M K N : ℕ) (p : Fin M) (q : Fin N) (c : Fin K) :
    (DotDims.plain M K N).lhsIdx (ix2 p q) ((contrEquiv1 (DotDims.plain M K N) K rfl rfl).symm c) = ix2 p c := by
  funext a
  refine Fin.ext ?_
  match a with
  | ⟨0, _⟩ => rfl
  | ⟨1, _⟩ =>
    show ((DotDims.plain M K N).lhsIdx (ix2 p q) ((contrEquiv1 (DotDims.plain M K N) K rfl rfl).symm c) 1).val = c.val
    rw [(DotDims.plain M K N).lhsIdx_val_of_single (cl := 1) rfl]
    exact contrEquiv1_symm_val (DotDims.plain M K N) K rfl rfl c

/-- The right operand's index there is `(c, q)`. -/
theorem plain_rhsIdx (M K N : ℕ) (p : Fin M) (q : Fin N) (c : Fin K) :
    (DotDims.plain M K N).rhsIdx (ix2 p q) ((contrEquiv1 (DotDims.plain M K N) K rfl rfl).symm c) = ix2 c q := by
  funext a
  refine Fin.ext ?_
  match a with
  | ⟨0, _⟩ =>
    show ((DotDims.plain M K N).rhsIdx (ix2 p q) ((contrEquiv1 (DotDims.plain M K N) K rfl rfl).symm c) 0).val = c.val
    rw [(DotDims.plain M K N).rhsIdx_val_of_single (cr := 0) rfl]
    exact contrEquiv1_symm_val (DotDims.plain M K N) K rfl rfl c
  | ⟨1, _⟩ => rfl

/-- Entry `(p, q)` of a plain product into the zero accumulator is `∑ c, lhs (p, c) · rhs (c, q)`. -/
theorem matmul_plain_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ c : Fin K, lhs (ix2 p c) * rhs (ix2 c q) := by
  rw [Ideal.matmul_constant_zero_apply, ← Equiv.sum_comp (contrEquiv1 (DotDims.plain M K N) K rfl rfl).symm]
  refine Finset.sum_congr rfl fun c _ => ?_
  rw [plain_lhsIdx, plain_rhsIdx]

end Cert.LibPlainDot
-- ==== Proof.Pay.lean ====
/-
  What each kernel body stores, entry by entry, over the extended reals. A body multiplies its block of rows by a whole
  right-hand matrix (a product into a zero accumulator is the plain sum over the contracted coordinate), adds the bias
  row to every row, takes the positive part and multiplies by the next layer's weights; roundings to a narrower float
  format are the identity on extended reals.
-/
import proofs.«160582_g51960514347202_cont_8to1_c_266_19_alg».proof.Proof.Gen.KernelIdeal.Skeleton
import proofs.«160582_g51960514347202_cont_8to1_c_266_19_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Pay

open Cert.KernelIdeal Cert.KernelIdeal.Gen Idealize.ShloMosaic Idealize.ShloMosaic.ValueIdx
open Cert.LibPlainDot
open scoped BigOperators

/-- The zero word of the positive part is the real number 0. -/
theorem zero_word : (Scalar.ofBits (F := Ideal) .f32 0x00000000#32 : EReal) = 0 := Ideal.ofBits_zero_f32

/-- The feature-times-weights body: entry `(p, q)` of the stored block is `∑ c, x (p, c) · w (c, q)`. -/
theorem support_apply (x0 : Vec Ideal S2000x512 .f32) (x1 : Vec Ideal S512x512 .bf16) (p : Fin 2000) (q : Fin 512) :
    k0_pay1 x0 x1 (ix2 p q) = ∑ c : Fin 512, x0 (ix2 p c) * x1 (ix2 c q) := by
  unfold k0_pay1
  refine (matmul_plain_zero_apply 2000 512 512 none _ _ p q).trans ?_
  refine Finset.sum_congr rfl fun c _ => ?_
  rw [shapeCast_self]
  rfl

/-- The first hidden layer's body: from its 200 rows of the adjacency matrix `a`, the whole support `s`, the bias row
    `r` and the next weights `w`, entry `(p, q)` of the stored block is `∑ c, max (∑ k, a (p, k) · s (k, c) + r c) 0 · w (c, q)`. -/
theorem hidden0_apply (x0 : Vec Ideal S200x10000 .f32) (x1 : Vec Ideal S10000x512 .bf16) (x2 : Vec Ideal S1x512 .f32)
    (x3 : Vec Ideal S512x512 .bf16) (p : Fin 200) (q : Fin 512) :
    k1_pay2 x0 x1 x2 x3 (ix2 p q)
      = ∑ c : Fin 512, max ((∑ k : Fin 10000, x0 (ix2 p k) * x1 (ix2 k c)) + x2 (ix2 (0 : Fin 1) c)) 0 * x3 (ix2 c q) := by
  unfold k1_pay2 k1_pay1
  refine (matmul_plain_zero_apply 200 512 512 none _ _ p q).trans ?_
  refine Finset.sum_congr rfl fun c _ => ?_
  simp only [shapeCast_self]
  refine congrArg (· * x3 (ix2 c q)) ?_
  refine congrArg₂ max (congrArg₂ (· + ·) ?_ ?_) zero_word
  · refine (matmul_plain_zero_apply (φ₁ := .bf16) (φ₂ := .bf16) 200 10000 512 none _ _ p c).trans ?_
    rfl
  · exact broadcastTo_1b_ab_apply _ _ p c

/-- The bf16 copy of the adjacency block is the block itself. -/
theorem copy_apply (x0 : Vec Ideal S200x10000 .f32) (j : S200x10000.Idx) : k1_pay1 x0 j = x0 j := rfl

/-- The second hidden layer's body, on 400 rows and 40 output columns. -/
theorem hidden1_apply (x0 : Vec Ideal S400x10000 .bf16) (x1 : Vec Ideal S10000x512 .bf16) (x2 : Vec Ideal S1x512 .f32)
    (x3 : Vec Ideal S512x40 .bf16) (p : Fin 400) (q : Fin 40) :
    k2_pay1 x0 x1 x2 x3 (ix2 p q)
      = ∑ c : Fin 512, max ((∑ k : Fin 10000, x0 (ix2 p k) * x1 (ix2 k c)) + x2 (ix2 (0 : Fin 1) c)) 0 * x3 (ix2 c q) := by
  unfold k2_pay1
  refine (matmul_plain_zero_apply 400 512 40 none _ _ p q).trans ?_
  refine Finset.sum_congr rfl fun c _ => ?_
  simp only [shapeCast_self]
  refine congrArg (· * x3 (ix2 c q)) ?_
  refine congrArg₂ max (congrArg₂ (· + ·) ?_ ?_) zero_word
  · exact matmul_plain_zero_apply (φ₁ := .bf16) (φ₂ := .bf16) 400 10000 512 none _ _ p c
  · exact broadcastTo_1b_ab_apply _ _ p c

/-- The output layer's body: entry `(p, q)` of the stored block is `∑ k, a (p, k) · s (k, q) + r q`. -/
theorem out_apply (x0 : Vec Ideal S400x10000 .bf16) (x1 : Vec Ideal S10000x40 .bf16) (x2 : Vec Ideal S1x40 .f32)
    (p : Fin 400) (q : Fin 40) :
    k3_pay1 x0 x1 x2 (ix2 p q) = (∑ k : Fin 10000, x0 (ix2 p k) * x1 (ix2 k q)) + x2 (ix2 (0 : Fin 1) q) := by
  unfold k3_pay1
  simp only [shapeCast_self]
  refine congrArg₂ (· + ·) ?_ ?_
  · exact matmul_plain_zero_apply (φ₁ := .bf16) (φ₂ := .bf16) 400 10000 40 none _ _ p q
  · exact broadcastTo_1b_ab_apply _ _ p q

end Cert.Gcn.Pay

end
-- ==== Proof.Spec.lean ====
/-
  The function both programs compute, over the extended reals: a three-layer graph convolution.
  With A the N×N adjacency matrix, X the node features, W0, W1, W2 the layer weights and b0, b1, b2 the biases,
      H1 = relu (A · (X · W0) + b0),   H2 = relu (A · (H1 · W1) + b1),   out = A · (H2 · W2) + b2,
  every product a plain sum over the contracted coordinate, a bias added to every row, relu the maximum with 0.
  The products are bracketed exactly as written: A multiplies the already-formed product of features and weights, so no
  sum is ever rearranged and nothing here needs finiteness.
-/
import Idealize.ShloMosaic.Lib.ValueIdx
import Idealize.ShloMosaic.PureOps.Ideal

noncomputable section

namespace Cert.Gcn

open Idealize.ShloMosaic Idealize.ShloMosaic.ValueIdx
open scoped BigOperators

/-- An `a × b` matrix of extended reals, indexed as a rank-2 array. -/
abbrev Mat (a b : ℕ) : Type := (⟨2, ![a, b]⟩ : Shape).Idx → EReal
/-- A vector of `b` extended reals, indexed as a rank-1 array. -/
abbrev Row (b : ℕ) : Type := (⟨1, ![b]⟩ : Shape).Idx → EReal

/-- The matrix product: entry `(p, q)` is `∑ c, A (p, c) · B (c, q)`. -/
def mm {a k b : ℕ} (A : Mat a k) (B : Mat k b) : Mat a b :=
  fun i => ∑ c : Fin k, A (ix2 (i 0 : Fin a) c) * B (ix2 c (i 1 : Fin b))

theorem mm_apply {a k b : ℕ} (A : Mat a k) (B : Mat k b) (p : Fin a) (q : Fin b) :
    mm A B (ix2 p q) = ∑ c : Fin k, A (ix2 p c) * B (ix2 c q) := rfl

/-- A one-row matrix added to every row. -/
def addRow {a b : ℕ} (M : Mat a b) (r : Mat 1 b) : Mat a b :=
  fun i => M i + r (ix2 (0 : Fin 1) (i 1 : Fin b))

theorem addRow_apply {a b : ℕ} (M : Mat a b) (r : Mat 1 b) (p : Fin a) (q : Fin b) :
    addRow M r (ix2 p q) = M (ix2 p q) + r (ix2 (0 : Fin 1) q) := rfl

/-- The positive part, entry by entry. -/
def relu {a b : ℕ} (M : Mat a b) : Mat a b := fun i => max (M i) 0

theorem relu_apply {a b : ℕ} (M : Mat a b) (i : (⟨2, ![a, b]⟩ : Shape).Idx) : relu M i = max (M i) 0 := rfl

/-- A vector as a one-row matrix. -/
def asRow {b : ℕ} (v : Row b) : Mat 1 b := fun i => v (ix1 (i 1 : Fin b))

theorem asRow_apply {b : ℕ} (v : Row b) (u : Fin 1) (q : Fin b) : asRow v (ix2 u q) = v (ix1 q) := rfl

/-- One hidden layer followed by the next layer's weights: `relu (A · S + r) · W`, where `S` is the product of the
    previous features with this layer's weights. -/
def hidden {n h k : ℕ} (A : Mat n n) (S : Mat n h) (r : Mat 1 h) (W : Mat h k) : Mat n k :=
  mm (relu (addRow (mm A S) r)) W

theorem hidden_apply {n h k : ℕ} (A : Mat n n) (S : Mat n h) (r : Mat 1 h) (W : Mat h k) (p : Fin n) (q : Fin k) :
    hidden A S r W (ix2 p q)
      = ∑ c : Fin h, max ((∑ j : Fin n, A (ix2 p j) * S (ix2 j c)) + r (ix2 (0 : Fin 1) c)) 0 * W (ix2 c q) := rfl

/-- The output layer: `A · S + r`. -/
def outLayer {n k : ℕ} (A : Mat n n) (S : Mat n k) (r : Mat 1 k) : Mat n k := addRow (mm A S) r

theorem outLayer_apply {n k : ℕ} (A : Mat n n) (S : Mat n k) (r : Mat 1 k) (p : Fin n) (q : Fin k) :
    outLayer A S r (ix2 p q) = (∑ j : Fin n, A (ix2 p j) * S (ix2 j q)) + r (ix2 (0 : Fin 1) q) := rfl

/-- The whole network on 10000 nodes, 512 features, 512 hidden units and 40 classes. -/
def gcn (x : Mat 10000 512) (adj : Mat 10000 10000) (W0 : Mat 512 512) (b0 : Row 512) (W1 : Mat 512 512) (b1 : Row 512)
    (W2 : Mat 512 40) (b2 : Row 40) : Mat 10000 40 :=
  outLayer adj (hidden adj (hidden adj (mm x W0) (asRow b0) W1) (asRow b1) W2) (asRow b2)

end Cert.Gcn

end
-- ==== Proof.Region0.lean ====
/-
  The first launch: the support of layer 0. Grid point t takes rows 2000·t … 2000·t + 1999 of the feature matrix and the
  whole weight matrix, and writes the same rows of their product; the five blocks tile the 10000 rows, so the array
  the launch leaves is the matrix product of the two arrays it found, whatever they are.
-/
import proofs.«160582_g51960514347202_cont_8to1_c_266_19_alg».proof.Proof.Gen.KernelIdeal.Frame
import proofs.«160582_g51960514347202_cont_8to1_c_266_19_alg».proof.Proof.Pay
import proofs.«160582_g51960514347202_cont_8to1_c_266_19_alg».proof.Proof.Spec
import Idealize.ShloMosaic.Lib.Pipeline.Value

noncomputable section

namespace Cert.Gcn.Region0

open Cert.KernelIdeal Cert.KernelIdeal.Gen Idealize.ShloMosaic Idealize.ShloMosaic.TcCoe Idealize.SL.Sem
open Idealize.ShloMosaic.ValueIdx Cert.Gcn
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the row-blocked windows sit at block row `t`, the weights at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of block `t` is row `2000·t + p` of the array. -/
def row (t : Fin cfg0.N) (p : Fin 2000) : Fin 10000 :=
  ⟨t.val * 2000 + p.val, by have ht : t.val < 5 := lt_of_lt_of_eq t.isLt N_0; have := p.isLt; omega⟩

theorem emb_x (t : Fin cfg0.N) (p : Fin 2000) (k : Fin 512) :
    ((cfg0.win 0).blk t).view.emb (ix2 p k) = ix2 (row t p) k := by
  obtain ⟨e0, e1, -⟩ := idx_facts t
  funext a; apply Fin.ext
  match a with
  | ⟨0, _⟩ => show win0_0.index t (0 : Fin 2) * 2000 + 1 * p.val = t.val * 2000 + p.val; rw [e0]; omega
  | ⟨1, _⟩ => show win0_0.index t (1 : Fin 2) * 512 + 1 * k.val = k.val; rw [e1]; omega

theorem emb_w (t : Fin cfg0.N) (k : Fin 512) (q : Fin 512) :
    ((cfg0.win 1).blk t).view.emb (ix2 k q) = ix2 k q := by
  obtain ⟨-, -, e2, e3, -⟩ := idx_facts t
  funext a; apply Fin.ext
  match a with
  | ⟨0, _⟩ => show win0_1.index t (0 : Fin 2) * 512 + 1 * k.val = k.val; rw [e2]; omega
  | ⟨1, _⟩ => show win0_1.index t (1 : Fin 2) * 512 + 1 * q.val = q.val; rw [e3]; omega

theorem emb_out (t : Fin cfg0.N) (p : Fin 2000) (q : Fin 512) :
    ((cfg0.win 2).blk t).view.emb (ix2 p q) = ix2 (row t p) q := by
  obtain ⟨-, -, -, -, e4, e5⟩ := idx_facts t
  funext a; apply Fin.ext
  match a with
  | ⟨0, _⟩ => show win0_2.index t (0 : Fin 2) * 2000 + 1 * p.val = t.val * 2000 + p.val; rw [e4]; omega
  | ⟨1, _⟩ => show win0_2.index t (1 : Fin 2) * 512 + 1 * q.val = q.val; rw [e5]; omega

/-- What point `t` writes back is block `t` of the product of the two arrays the launch found. -/
theorem flushed_eq (c : Dev nD) (t : Fin cfg0.N) :
    (dat0 V c).flushed 2 t = ((cfg0.win 2).blk t).view.read (Elt Ideal)
      (mm (a := 10000) (k := 512) (b := 512) (V c main_arg0) (V c main_call0_v0)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x512) hz]
  funext j
  obtain ⟨p, q, rfl⟩ : ∃ (p : Fin 2000) (q : Fin 512), j = ix2 p q := ⟨j 0, j 1, eq_ix2 j⟩
  show k0_pay1 (iblk0 V c 0 t) (iblk0 V c 1 t) (ix2 p q)
    = mm (a := 10000) (k := 512) (b := 512) (V c main_arg0) (V c main_call0_v0) (((cfg0.win 2).blk t).view.emb (ix2 p q))
  rw [emb_out, mm_apply]
  refine (Pay.support_apply _ _ p q).trans ?_
  refine Finset.sum_congr rfl fun k _ => ?_
  refine congrArg₂ (· * ·) ?_ ?_
  · show V c main_arg0 (((cfg0.win 0).blk t).view.emb (ix2 p k)) = _
    rw [emb_x]
  · show V c main_call0_v0 (((cfg0.win 1).blk t).view.emb (ix2 k q)) = _
    rw [emb_w]

/-- An index of the output array is in point `t`'s block iff each coordinate is in the block's range on its axis. -/
theorem mem_blk (t : Fin cfg0.N) (i : S10000x512.Idx) :
    i ∈ ((cfg0.win 2).blk t).view.set ↔ ∀ a : Fin 2, win0_2.index t a * S2000x512.size a ≤ (i a).val
      ∧ (i a).val < win0_2.index t a * S2000x512.size a + S2000x512.size a := by
  show i ∈ ((View.whole main_call0_v1).slice (win0_2.rect t)).set ↔ _
  rw [View.set_slice_whole, Rect.mem_set_unit]
  exact Iff.rfl

/-- Row `r` lies in the block of point `r / 2000`. -/
theorem cover (i : S10000x512.Idx) : ∃ t : Fin cfg0.N, (cfg0.win 2).flush t = true ∧ i ∈ ((cfg0.win 2).blk t).view.set := by
  have hi0 : (i 0).val < 10000 := (i 0).isLt
  have hi1 : (i 1).val < 512 := (i 1).isLt
  have hN : grid0.N = 5 := N_0
  obtain ⟨t, ht⟩ : ∃ t : Fin cfg0.N, t.val = (i 0).val / 2000 := ⟨⟨(i 0).val / 2000, by show _ < grid0.N; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    rw [e4]; omega
  | ⟨1, _⟩ =>
    show win0_2.index t (1 : Fin 2) * 512 ≤ (i 1).val ∧ (i 1).val < win0_2.index t (1 : Fin 2) * 512 + 512
    rw [e5]; omega

/-- The array the launch leaves is the product of the two arrays it found. -/
theorem final (c : Dev nD) :
    (dat0 V c).arrAt 2 cfg0.N = mm (a := 10000) (k := 512) (b := 512) (V c main_arg0) (V c main_call0_v0) :=
  (dat0 V c).arrAt_eq_of_cover 2 _ (fun t _ => flushed_eq V c t) cover

end Cert.Gcn.Region0

end
-- ==== Proof.Region1.lean ====
/-
  The second launch: the first hidden layer fused with the next layer's weights, and a copy of the adjacency matrix.
  Grid point t takes rows 200·t … 200·t + 199 of the adjacency matrix and, whole, the support, the bias row and the next
  weights; it writes the same rows of relu (A · S + r) · W and of A itself. The fifty blocks tile the 10000 rows, so the
  two arrays the launch leaves are that function of the arrays it found, and the adjacency matrix again.
-/
import proofs.«160582_g51960514347202_cont_8to1_c_266_19_alg».proof.Proof.Gen.KernelIdeal.Frame
import proofs.«160582_g51960514347202_cont_8to1_c_266_19_alg».proof.Proof.Pay
import proofs.«160582_g51960514347202_cont_8to1_c_266_19_alg».proof.Proof.Spec
import Idealize.ShloMosaic.Lib.Pipeline.Value

noncomputable section

namespace Cert.Gcn.Region1

open Cert.KernelIdeal Cert.KernelIdeal.Gen Idealize.ShloMosaic Idealize.ShloMosaic.TcCoe Idealize.SL.Sem
open Idealize.ShloMosaic.ValueIdx Cert.Gcn
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the row-blocked windows sit at block row `t`, the whole ones at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `p` of block `t` is row `200·t + p` of the array. -/
def row (t : Fin cfg1.N) (p : Fin 200) : Fin 10000 :=
  ⟨t.val * 200 + p.val, by have ht : t.val < 50 := lt_of_lt_of_eq t.isLt N_1; have := p.isLt; omega⟩

theorem emb_adj (t : Fin cfg1.N) (p : Fin 200) (q : Fin 10000) :
    ((cfg1.win 0).blk t).view.emb (ix2 p q) = ix2 (row t p) q := by
  obtain ⟨e00, e01, e10, e11, e20, e21, e30, e31, e40, e41, e50, e51⟩ := idx_facts t
  funext a; apply Fin.ext
  match a with
  | ⟨0, _⟩ => show win1_0.index t (0 : Fin 2) * 200 + 1 * p.val = t.val * 200 + p.val; rw [e00]; omega
  | ⟨1, _⟩ => show win1_0.index t (1 : Fin 2) * 10000 + 1 * q.val = q.val; rw [e01]; omega

theorem emb_sup (t : Fin cfg1.N) (p : Fin 10000) (q : Fin 512) :
    ((cfg1.win 1).blk t).view.emb (ix2 p q) = ix2 p q := by
  obtain ⟨e00, e01, e10, e11, e20, e21, e30, e31, e40, e41, e50, e51⟩ := idx_facts t
  funext a; apply Fin.ext
  match a with
  | ⟨0, _⟩ => show win1_1.index t (0 : Fin 2) * 10000 + 1 * p.val = p.val; rw [e10]; omega
  | ⟨1, _⟩ => show win1_1.index t (1 : Fin 2) * 512 + 1 * q.val = q.val; rw [e11]; omega

theorem emb_bias (t : Fin cfg1.N) (p : Fin 1) (q : Fin 512) :
    ((cfg1.win 2).blk t).view.emb (ix2 p q) = ix2 p q := by
  obtain ⟨e00, e01, e10, e11, e20, e21, e30, e31, e40, e41, e50, e51⟩ := idx_facts t
  funext a; apply Fin.ext
  match a with
  | ⟨0, _⟩ => show win1_2.index t (0 : Fin 2) * 1 + 1 * p.val = p.val; rw [e20]; omega
  | ⟨1, _⟩ => show win1_2.index t (1 : Fin 2) * 512 + 1 * q.val = q.val; rw [e21]; omega

theorem emb_w (t : Fin cfg1.N) (p : Fin 512) (q : Fin 512) :
    ((cfg1.win 3).blk t).view.emb (ix2 p q) = ix2 p q := by
  obtain ⟨e00, e01, e10, e11, e20, e21, e30, e31, e40, e41, e50, e51⟩ := idx_facts t
  funext a; apply Fin.ext
  match a with
  | ⟨0, _⟩ => show win1_3.index t (0 : Fin 2) * 512 + 1 * p.val = p.val; rw [e30]; omega
  | ⟨1, _⟩ => show win1_3.index t (1 : Fin 2) * 512 + 1 * q.val = q.val; rw [e31]; omega

theorem emb_out (t : Fin cfg1.N) (p : Fin 200) (q : Fin 512) :
    ((cfg1.win 4).blk t).view.emb (ix2 p q) = ix2 (row t p) q := by
  obtain ⟨e00, e01, e10, e11, e20, e21, e30, e31, e40, e41, e50, e51⟩ := idx_facts t
  funext a; apply Fin.ext
  match a with
  | ⟨0, _⟩ => show win1_4.index t (0 : Fin 2) * 200 + 1 * p.val = t.val * 200 + p.val; rw [e40]; omega
  | ⟨1, _⟩ => show win1_4.index t (1 : Fin 2) * 512 + 1 * q.val = q.val; rw [e41]; omega

theorem emb_copy (t : Fin cfg1.N) (p : Fin 200) (q : Fin 10000) :
    ((cfg1.win 5).blk t).view.emb (ix2 p q) = ix2 (row t p) q := by
  obtain ⟨e00, e01, e10, e11, e20, e21, e30, e31, e40, e41, e50, e51⟩ := idx_facts t
  funext a; apply Fin.ext
  match a with
  | ⟨0, _⟩ => show win1_5.index t (0 : Fin 2) * 200 + 1 * p.val = t.val * 200 + p.val; rw [e50]; omega
  | ⟨1, _⟩ => show win1_5.index t (1 : Fin 2) * 10000 + 1 * q.val = q.val; rw [e51]; omega

/-- What point `t` writes back to the support of the next layer is block `t` of `relu (A · S + r) · W`. -/
theorem flushed_eq (c : Dev nD) (t : Fin cfg1.N) :
    (dat1 V c).flushed 4 t = ((cfg1.win 4).blk t).view.read (Elt Ideal)
      (hidden (n := 10000) (h := 512) (k := 512) (V c main_arg1) (V c main_call0_v1) (V c main_call0_v2) (V c main_call0_v3)) := by
  show (cfg1.win 4).cut (grid1.coords t) ((dat1 V c).after 4 t) = _
  rw [after1_4]
  unfold out1_4
  rw [View.canon_unit_zero hz]
  simp only [View.ld_unit_zero (S := S200x10000) hz, View.ld_unit_zero (S := S10000x512) hz,
    View.ld_unit_zero (S := S1x512) hz, View.ld_unit_zero (S := S512x512) hz]
  funext j
  obtain ⟨p, q, rfl⟩ : ∃ (p : Fin 200) (q : Fin 512), j = ix2 p q := ⟨j 0, j 1, eq_ix2 j⟩
  show k1_pay2 (iblk1 V c 0 t) (iblk1 V c 1 t) (iblk1 V c 2 t) (iblk1 V c 3 t) (ix2 p q)
    = hidden (n := 10000) (h := 512) (k := 512) (V c main_arg1) (V c main_call0_v1) (V c main_call0_v2) (V c main_call0_v3)
        (((cfg1.win 4).blk t).view.emb (ix2 p q))
  rw [emb_out, hidden_apply]
  refine (Pay.hidden0_apply _ _ _ _ p q).trans ?_
  refine Finset.sum_congr rfl fun d _ => ?_
  refine congrArg₂ (· * ·) (congrArg₂ max (congrArg₂ (· + ·) (Finset.sum_congr rfl fun k _ => congrArg₂ (· * ·) ?_ ?_) ?_) rfl) ?_
  · show V c main_arg1 (((cfg1.win 0).blk t).view.emb (ix2 p k)) = _
    rw [emb_adj]
  · show V c main_call0_v1 (((cfg1.win 1).blk t).view.emb (ix2 k d)) = _
    rw [emb_sup]
  · show V c main_call0_v2 (((cfg1.win 2).blk t).view.emb (ix2 (0 : Fin 1) d)) = _
    rw [emb_bias]
  · show V c main_call0_v3 (((cfg1.win 3).blk t).view.emb (ix2 d q)) = _
    rw [emb_w]

/-- What point `t` writes back to the copy is block `t` of the adjacency matrix. -/
theorem flushed_copy_eq (c : Dev nD) (t : Fin cfg1.N) :
    (dat1 V c).flushed 5 t = ((cfg1.win 5).blk t).view.read (Elt Ideal) (fun i => V c main_arg1 i) := by
  show (cfg1.win 5).cut (grid1.coords t) ((dat1 V c).after 5 t) = _
  rw [after1_5]
  unfold out1_5
  rw [View.canon_unit_zero hz]
  simp only [View.ld_unit_zero (S := S200x10000) hz]
  funext j
  obtain ⟨p, q, rfl⟩ : ∃ (p : Fin 200) (q : Fin 10000), j = ix2 p q := ⟨j 0, j 1, eq_ix2 j⟩
  show V c main_arg1 (((cfg1.win 0).blk t).view.emb (ix2 p q)) = V c main_arg1 (((cfg1.win 5).blk t).view.emb (ix2 p q))
  rw [emb_adj, emb_copy]

/-- An index of the array is in point `t`'s block iff each coordinate is in the block's range on its axis. -/
theorem mem_blk (t : Fin cfg1.N) (i : S10000x512.Idx) :
    i ∈ ((cfg1.win 4).blk t).view.set ↔ ∀ a : Fin 2, win1_4.index t a * S200x512.size a ≤ (i a).val
      ∧ (i a).val < win1_4.index t a * S200x512.size a + S200x512.size a := by
  show i ∈ ((View.whole main_call0_v4_0).slice (win1_4.rect t)).set ↔ _
  rw [View.set_slice_whole, Rect.mem_set_unit]
  exact Iff.rfl

/-- Row `r` lies in the block of point `r / 200`. -/
theorem cover (i : S10000x512.Idx) :
    ∃ t : Fin cfg1.N, (cfg1.win 4).flush t = true ∧ i ∈ ((cfg1.win 4).blk t).view.set := by
  have hi0 : (i 0).val < 10000 := (i 0).isLt
  have hi1 : (i 1).val < 512 := (i 1).isLt
  have hN := N_1
  obtain ⟨t, ht⟩ : ∃ t : Fin cfg1.N, t.val = (i 0).val / 200 := ⟨⟨(i 0).val / 200, by show _ < grid1.N; omega⟩, rfl⟩
  obtain ⟨e00, e01, e10, e11, e20, e21, e30, e31, e40, e41, e50, e51⟩ := idx_facts t
  refine ⟨t, flush1_4 t, ?_⟩
  rw [mem_blk]
  intro a
  match a with
  | ⟨0, _⟩ =>
    show win1_4.index t (0 : Fin 2) * 200 ≤ (i 0).val ∧ (i 0).val < win1_4.index t (0 : Fin 2) * 200 + 200
    rw [e40]; omega
  | ⟨1, _⟩ =>
    show win1_4.index t (1 : Fin 2) * 512 ≤ (i 1).val ∧ (i 1).val < win1_4.index t (1 : Fin 2) * 512 + 512
    rw [e41]; omega

/-- An index of the array is in point `t`'s block iff each coordinate is in the block's range on its axis. -/
theorem mem_blk_copy (t : Fin cfg1.N) (i : S10000x10000.Idx) :
    i ∈ ((cfg1.win 5).blk t).view.set ↔ ∀ a : Fin 2, win1_5.index t a * S200x10000.size a ≤ (i a).val
      ∧ (i a).val < win1_5.index t a * S200x10000.size a + S200x10000.size a := by
  show i ∈ ((View.whole main_call0_v4_1).slice (win1_5.rect t)).set ↔ _
  rw [View.set_slice_whole, Rect.mem_set_unit]
  exact Iff.rfl

/-- Row `r` lies in the block of point `r / 200`. -/
theorem cover_copy (i : S10000x10000.Idx) :
    ∃ t : Fin cfg1.N, (cfg1.win 5).flush t = true ∧ i ∈ ((cfg1.win 5).blk t).view.set := by
  have hi0 : (i 0).val < 10000 := (i 0).isLt
  have hi1 : (i 1).val < 10000 := (i 1).isLt
  have hN := N_1
  obtain ⟨t, ht⟩ : ∃ t : Fin cfg1.N, t.val = (i 0).val / 200 := ⟨⟨(i 0).val / 200, by show _ < grid1.N; omega⟩, rfl⟩
  obtain ⟨e00, e01, e10, e11, e20, e21, e30, e31, e40, e41, e50, e51⟩ := idx_facts t
  refine ⟨t, flush1_5 t, ?_⟩
  rw [mem_blk_copy]
  intro a
  match a with
  | ⟨0, _⟩ =>
    show win1_5.index t (0 : Fin 2) * 200 ≤ (i 0).val ∧ (i 0).val < win1_5.index t (0 : Fin 2) * 200 + 200
    rw [e50]; omega
  | ⟨1, _⟩ =>
    show win1_5.index t (1 : Fin 2) * 10000 ≤ (i 1).val ∧ (i 1).val < win1_5.index t (1 : Fin 2) * 10000 + 10000
    rw [e51]; omega

/-- The support the launch leaves for the next layer is `relu (A · S + r) · W` of the arrays it found. -/
theorem final (c : Dev nD) :
    (dat1 V c).arrAt 4 cfg1.N
      = hidden (n := 10000) (h := 512) (k := 512) (V c main_arg1) (V c main_call0_v1) (V c main_call0_v2) (V c main_call0_v3) :=
  (dat1 V c).arrAt_eq_of_cover 4 _ (fun t _ => flushed_eq V c t) cover

/-- The copy the launch leaves is the adjacency matrix it found. -/
theorem final_copy (c : Dev nD) : (dat1 V c).arrAt 5 cfg1.N = fun i => V c main_arg1 i :=
  (dat1 V c).arrAt_eq_of_cover 5 _ (fun t _ => flushed_copy_eq V c t) cover_copy

end Cert.Gcn.Region1

end
-- ==== Proof.Region2.lean ====
/-
  The third launch: the second hidden layer fused with the output layer's weights. Grid point t takes rows
  400·t … 400·t + 399 of the adjacency copy and, whole, the support, the bias row and the next weights, and writes the
  same rows of relu (A · S + r) · W. The twenty-five blocks tile the 10000 rows, so the array the launch leaves is that
  function of the arrays it found.
-/
import proofs.«160582_g51960514347202_cont_8to1_c_266_19_alg».proof.Proof.Gen.KernelIdeal.Frame
import proofs.«160582_g51960514347202_cont_8to1_c_266_19_alg».proof.Proof.Pay
import proofs.«160582_g51960514347202_cont_8to1_c_266_19_alg».proof.Proof.Spec
import Idealize.ShloMosaic.Lib.Pipeline.Value

noncomputable section

namespace Cert.Gcn.Region2

open Cert.KernelIdeal Cert.KernelIdeal.Gen Idealize.ShloMosaic Idealize.ShloMosaic.TcCoe Idealize.SL.Sem
open Idealize.ShloMosaic.ValueIdx Cert.Gcn
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the row-blocked windows sit at block row `t`, the whole ones at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of block `t` is row `400·t + p` of the array. -/
def row (t : Fin cfg2.N) (p : Fin 400) : Fin 10000 :=
  ⟨t.val * 400 + p.val, by have ht : t.val < 25 := lt_of_lt_of_eq t.isLt N_2; have := p.isLt; omega⟩

theorem emb_adj (t : Fin cfg2.N) (p : Fin 400) (q : Fin 10000) :
    ((cfg2.win 0).blk t).view.emb (ix2 p q) = ix2 (row t p) q := by
  obtain ⟨e00, e01, e10, e11, e20, e21, e30, e31, e40, e41⟩ := idx_facts t
  funext a; apply Fin.ext
  match a with
  | ⟨0, _⟩ => show win2_0.index t (0 : Fin 2) * 400 + 1 * p.val = t.val * 400 + p.val; rw [e00]; omega
  | ⟨1, _⟩ => show win2_0.index t (1 : Fin 2) * 10000 + 1 * q.val = q.val; rw [e01]; omega

theorem emb_sup (t : Fin cfg2.N) (p : Fin 10000) (q : Fin 512) :
    ((cfg2.win 1).blk t).view.emb (ix2 p q) = ix2 p q := by
  obtain ⟨e00, e01, e10, e11, e20, e21, e30, e31, e40, e41⟩ := idx_facts t
  funext a; apply Fin.ext
  match a with
  | ⟨0, _⟩ => show win2_1.index t (0 : Fin 2) * 10000 + 1 * p.val = p.val; rw [e10]; omega
  | ⟨1, _⟩ => show win2_1.index t (1 : Fin 2) * 512 + 1 * q.val = q.val; rw [e11]; omega

theorem emb_bias (t : Fin cfg2.N) (p : Fin 1) (q : Fin 512) :
    ((cfg2.win 2).blk t).view.emb (ix2 p q) = ix2 p q := by
  obtain ⟨e00, e01, e10, e11, e20, e21, e30, e31, e40, e41⟩ := idx_facts t
  funext a; apply Fin.ext
  match a with
  | ⟨0, _⟩ => show win2_2.index t (0 : Fin 2) * 1 + 1 * p.val = p.val; rw [e20]; omega
  | ⟨1, _⟩ => show win2_2.index t (1 : Fin 2) * 512 + 1 * q.val = q.val; rw [e21]; omega

theorem emb_w (t : Fin cfg2.N) (p : Fin 512) (q : Fin 40) :
    ((cfg2.win 3).blk t).view.emb (ix2 p q) = ix2 p q := by
  obtain ⟨e00, e01, e10, e11, e20, e21, e30, e31, e40, e41⟩ := idx_facts t
  funext a; apply Fin.ext
  match a with
  | ⟨0, _⟩ => show win2_3.index t (0 : Fin 2) * 512 + 1 * p.val = p.val; rw [e30]; omega
  | ⟨1, _⟩ => show win2_3.index t (1 : Fin 2) * 40 + 1 * q.val = q.val; rw [e31]; omega

theorem emb_out (t : Fin cfg2.N) (p : Fin 400) (q : Fin 40) :
    ((cfg2.win 4).blk t).view.emb (ix2 p q) = ix2 (row t p) q := by
  obtain ⟨e00, e01, e10, e11, e20, e21, e30, e31, e40, e41⟩ := idx_facts t
  funext a; apply Fin.ext
  match a with
  | ⟨0, _⟩ => show win2_4.index t (0 : Fin 2) * 400 + 1 * p.val = t.val * 400 + p.val; rw [e40]; omega
  | ⟨1, _⟩ => show win2_4.index t (1 : Fin 2) * 40 + 1 * q.val = q.val; rw [e41]; omega

/-- What point `t` writes back is block `t` of `relu (A · S + r) · W`. -/
theorem flushed_eq (c : Dev nD) (t : Fin cfg2.N) :
    (dat2 V c).flushed 4 t = ((cfg2.win 4).blk t).view.read (Elt Ideal)
      (hidden (n := 10000) (h := 512) (k := 40) (fun i => V c main_call0_v4_1 i) (fun i => V c main_call0_v4_0 i) (V c main_call0_v5) (fun i => V c main_call0_v6 i)) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x512) hz,
    View.ld_unit_zero (S := S1x512) hz, View.ld_unit_zero (S := S512x40) hz]
  funext j
  obtain ⟨p, q, rfl⟩ : ∃ (p : Fin 400) (q : Fin 40), j = ix2 p q := ⟨j 0, j 1, eq_ix2 j⟩
  show k2_pay1 (iblk2 V c 0 t) (iblk2 V c 1 t) (iblk2 V c 2 t) (iblk2 V c 3 t) (ix2 p q)
    = hidden (n := 10000) (h := 512) (k := 40) (fun i => V c main_call0_v4_1 i) (fun i => V c main_call0_v4_0 i) (V c main_call0_v5) (fun i => V c main_call0_v6 i)
        (((cfg2.win 4).blk t).view.emb (ix2 p q))
  rw [emb_out, hidden_apply]
  refine (Pay.hidden1_apply _ _ _ _ p q).trans ?_
  refine Finset.sum_congr rfl fun d _ => ?_
  refine congrArg₂ (· * ·) (congrArg₂ max (congrArg₂ (· + ·) (Finset.sum_congr rfl fun k _ => congrArg₂ (· * ·) ?_ ?_) ?_) rfl) ?_
  · show V c main_call0_v4_1 (((cfg2.win 0).blk t).view.emb (ix2 p k)) = _
    rw [emb_adj]
  · show V c main_call0_v4_0 (((cfg2.win 1).blk t).view.emb (ix2 k d)) = _
    rw [emb_sup]
  · show V c main_call0_v5 (((cfg2.win 2).blk t).view.emb (ix2 (0 : Fin 1) d)) = _
    rw [emb_bias]
  · show V c main_call0_v6 (((cfg2.win 3).blk t).view.emb (ix2 d q)) = _
    rw [emb_w]

/-- An index of the array is in point `t`'s block iff each coordinate is in the block's range on its axis. -/
theorem mem_blk (t : Fin cfg2.N) (i : S10000x40.Idx) :
    i ∈ ((cfg2.win 4).blk t).view.set ↔ ∀ a : Fin 2, win2_4.index t a * S400x40.size a ≤ (i a).val
      ∧ (i a).val < win2_4.index t a * S400x40.size a + S400x40.size a := by
  show i ∈ ((View.whole main_call0_v7).slice (win2_4.rect t)).set ↔ _
  rw [View.set_slice_whole, Rect.mem_set_unit]
  exact Iff.rfl

/-- Row `r` lies in the block of point `r / 400`. -/
theorem cover (i : S10000x40.Idx) :
    ∃ t : Fin cfg2.N, (cfg2.win 4).flush t = true ∧ i ∈ ((cfg2.win 4).blk t).view.set := by
  have hi0 : (i 0).val < 10000 := (i 0).isLt
  have hi1 : (i 1).val < 40 := (i 1).isLt
  have hN := N_2
  obtain ⟨t, ht⟩ : ∃ t : Fin cfg2.N, t.val = (i 0).val / 400 := ⟨⟨(i 0).val / 400, by show _ < grid2.N; omega⟩, rfl⟩
  obtain ⟨e00, e01, e10, e11, e20, e21, e30, e31, e40, e41⟩ := idx_facts t
  refine ⟨t, flush2_4 t, ?_⟩
  rw [mem_blk]
  intro a
  match a with
  | ⟨0, _⟩ =>
    show win2_4.index t (0 : Fin 2) * 400 ≤ (i 0).val ∧ (i 0).val < win2_4.index t (0 : Fin 2) * 400 + 400
    rw [e40]; omega
  | ⟨1, _⟩ =>
    show win2_4.index t (1 : Fin 2) * 40 ≤ (i 1).val ∧ (i 1).val < win2_4.index t (1 : Fin 2) * 40 + 40
    rw [e41]; omega

/-- The support the launch leaves for the output layer is `relu (A · S + r) · W` of the arrays it found. -/
theorem final (c : Dev nD) :
    (dat2 V c).arrAt 4 cfg2.N
      = hidden (n := 10000) (h := 512) (k := 40) (fun i => V c main_call0_v4_1 i) (fun i => V c main_call0_v4_0 i) (V c main_call0_v5) (fun i => V c main_call0_v6 i) :=
  (dat2 V c).arrAt_eq_of_cover 4 _ (fun t _ => flushed_eq V c t) cover

end Cert.Gcn.Region2

end
-- ==== Proof.Region3.lean ====
/-
  The fourth launch: the output layer. Grid point t takes rows 400·t … 400·t + 399 of the adjacency copy and, whole, the
  support and the bias row, and writes the same rows of A · S + r. The twenty-five blocks tile the 10000 rows, so the
  array the launch leaves is that function of the arrays it found.
-/
import proofs.«160582_g51960514347202_cont_8to1_c_266_19_alg».proof.Proof.Gen.KernelIdeal.Frame
import proofs.«160582_g51960514347202_cont_8to1_c_266_19_alg».proof.Proof.Pay
import proofs.«160582_g51960514347202_cont_8to1_c_266_19_alg».proof.Proof.Spec
import Idealize.ShloMosaic.Lib.Pipeline.Value

noncomputable section

namespace Cert.Gcn.Region3

open Cert.KernelIdeal Cert.KernelIdeal.Gen Idealize.ShloMosaic Idealize.ShloMosaic.TcCoe Idealize.SL.Sem
open Idealize.ShloMosaic.ValueIdx Cert.Gcn
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the row-blocked windows sit at block row `t`, the whole ones at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of block `t` is row `400·t + p` of the array. -/
def row (t : Fin cfg3.N) (p : Fin 400) : Fin 10000 :=
  ⟨t.val * 400 + p.val, by have ht : t.val < 25 := lt_of_lt_of_eq t.isLt N_3; have := p.isLt; omega⟩

theorem emb_adj (t : Fin cfg3.N) (p : Fin 400) (q : Fin 10000) :
    ((cfg3.win 0).blk t).view.emb (ix2 p q) = ix2 (row t p) q := by
  obtain ⟨e00, e01, e10, e11, e20, e21, e30, e31⟩ := idx_facts t
  funext a; apply Fin.ext
  match a with
  | ⟨0, _⟩ => show win3_0.index t (0 : Fin 2) * 400 + 1 * p.val = t.val * 400 + p.val; rw [e00]; omega
  | ⟨1, _⟩ => show win3_0.index t (1 : Fin 2) * 10000 + 1 * q.val = q.val; rw [e01]; omega

theorem emb_sup (t : Fin cfg3.N) (p : Fin 10000) (q : Fin 40) :
    ((cfg3.win 1).blk t).view.emb (ix2 p q) = ix2 p q := by
  obtain ⟨e00, e01, e10, e11, e20, e21, e30, e31⟩ := idx_facts t
  funext a; apply Fin.ext
  match a with
  | ⟨0, _⟩ => show win3_1.index t (0 : Fin 2) * 10000 + 1 * p.val = p.val; rw [e10]; omega
  | ⟨1, _⟩ => show win3_1.index t (1 : Fin 2) * 40 + 1 * q.val = q.val; rw [e11]; omega

theorem emb_bias (t : Fin cfg3.N) (p : Fin 1) (q : Fin 40) :
    ((cfg3.win 2).blk t).view.emb (ix2 p q) = ix2 p q := by
  obtain ⟨e00, e01, e10, e11, e20, e21, e30, e31⟩ := idx_facts t
  funext a; apply Fin.ext
  match a with
  | ⟨0, _⟩ => show win3_2.index t (0 : Fin 2) * 1 + 1 * p.val = p.val; rw [e20]; omega
  | ⟨1, _⟩ => show win3_2.index t (1 : Fin 2) * 40 + 1 * q.val = q.val; rw [e21]; omega

theorem emb_out (t : Fin cfg3.N) (p : Fin 400) (q : Fin 40) :
    ((cfg3.win 3).blk t).view.emb (ix2 p q) = ix2 (row t p) q := by
  obtain ⟨e00, e01, e10, e11, e20, e21, e30, e31⟩ := idx_facts t
  funext a; apply Fin.ext
  match a with
  | ⟨0, _⟩ => show win3_3.index t (0 : Fin 2) * 400 + 1 * p.val = t.val * 400 + p.val; rw [e30]; omega
  | ⟨1, _⟩ => show win3_3.index t (1 : Fin 2) * 40 + 1 * q.val = q.val; rw [e31]; omega

/-- What point `t` writes back is block `t` of `A · S + r`. -/
theorem flushed_eq (c : Dev nD) (t : Fin cfg3.N) :
    (dat3 V c).flushed 3 t = ((cfg3.win 3).blk t).view.read (Elt Ideal)
      (outLayer (n := 10000) (k := 40) (fun i => V c main_call0_v4_1 i) (fun i => V c main_call0_v7 i) (V c main_call0_v8)) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x40) hz,
    View.ld_unit_zero (S := S1x40) hz]
  funext j
  obtain ⟨p, q, rfl⟩ : ∃ (p : Fin 400) (q : Fin 40), j = ix2 p q := ⟨j 0, j 1, eq_ix2 j⟩
  show k3_pay1 (iblk3 V c 0 t) (iblk3 V c 1 t) (iblk3 V c 2 t) (ix2 p q)
    = outLayer (n := 10000) (k := 40) (fun i => V c main_call0_v4_1 i) (fun i => V c main_call0_v7 i) (V c main_call0_v8)
        (((cfg3.win 3).blk t).view.emb (ix2 p q))
  rw [emb_out, outLayer_apply]
  refine (Pay.out_apply _ _ _ p q).trans ?_
  refine congrArg₂ (· + ·) (Finset.sum_congr rfl fun k _ => congrArg₂ (· * ·) ?_ ?_) ?_
  · show V c main_call0_v4_1 (((cfg3.win 0).blk t).view.emb (ix2 p k)) = _
    rw [emb_adj]
  · show V c main_call0_v7 (((cfg3.win 1).blk t).view.emb (ix2 k q)) = _
    rw [emb_sup]
  · show V c main_call0_v8 (((cfg3.win 2).blk t).view.emb (ix2 (0 : Fin 1) q)) = _
    rw [emb_bias]

/-- An index of the array is in point `t`'s block iff each coordinate is in the block's range on its axis. -/
theorem mem_blk (t : Fin cfg3.N) (i : S10000x40.Idx) :
    i ∈ ((cfg3.win 3).blk t).view.set ↔ ∀ a : Fin 2, win3_3.index t a * S400x40.size a ≤ (i a).val
      ∧ (i a).val < win3_3.index t a * S400x40.size a + S400x40.size a := by
  show i ∈ ((View.whole main_v0).slice (win3_3.rect t)).set ↔ _
  rw [View.set_slice_whole, Rect.mem_set_unit]
  exact Iff.rfl

/-- Row `r` lies in the block of point `r / 400`. -/
theorem cover (i : S10000x40.Idx) :
    ∃ t : Fin cfg3.N, (cfg3.win 3).flush t = true ∧ i ∈ ((cfg3.win 3).blk t).view.set := by
  have hi0 : (i 0).val < 10000 := (i 0).isLt
  have hi1 : (i 1).val < 40 := (i 1).isLt
  have hN := N_3
  obtain ⟨t, ht⟩ : ∃ t : Fin cfg3.N, t.val = (i 0).val / 400 := ⟨⟨(i 0).val / 400, by show _ < grid3.N; omega⟩, rfl⟩
  obtain ⟨e00, e01, e10, e11, e20, e21, e30, e31⟩ := idx_facts t
  refine ⟨t, flush3_3 t, ?_⟩
  rw [mem_blk]
  intro a
  match a with
  | ⟨0, _⟩ =>
    show win3_3.index t (0 : Fin 2) * 400 ≤ (i 0).val ∧ (i 0).val < win3_3.index t (0 : Fin 2) * 400 + 400
    rw [e30]; omega
  | ⟨1, _⟩ =>
    show win3_3.index t (1 : Fin 2) * 40 ≤ (i 1).val ∧ (i 1).val < win3_3.index t (1 : Fin 2) * 40 + 40
    rw [e31]; omega

/-- The result the launch leaves is `A · S + r` of the arrays it found. -/
theorem final (c : Dev nD) :
    (dat3 V c).arrAt 3 cfg3.N
      = outLayer (n := 10000) (k := 40) (fun i => V c main_call0_v4_1 i) (fun i => V c main_call0_v7 i) (V c main_call0_v8) :=
  (dat3 V c).arrAt_eq_of_cover 3 _ (fun t _ => flushed_eq V c t) cover

end Cert.Gcn.Region3

end
-- ==== Proof.Fold.lean ====
/-
  The kernel program's buffer contents, boundary by boundary, read back to the launch memory. Between launches the host
  only changes formats (the identity on extended reals) and lays a bias vector out as one row; a launch leaves its
  output arrays at the function of its input arrays the region modules prove and every other buffer alone. So the support
  of layer 0 is X · W0, each later support is relu (A · S + b) · W of the one before, the adjacency copy is A, and the
  result buffer ends at A · S2 + b2: the network of the specification.
-/
import proofs.«160582_g51960514347202_cont_8to1_c_266_19_alg».proof.Proof.Region0
import proofs.«160582_g51960514347202_cont_8to1_c_266_19_alg».proof.Proof.Region1
import proofs.«160582_g51960514347202_cont_8to1_c_266_19_alg».proof.Proof.Region2
import proofs.«160582_g51960514347202_cont_8to1_c_266_19_alg».proof.Proof.Region3
import Idealize.ShloMosaic.Lib.ValueLayout
import Idealize.ShloMosaic.Lib.StableHlo.Run

noncomputable section

namespace Cert.Gcn.Fold

open Cert.KernelIdeal Cert.KernelIdeal.Gen Idealize.ShloMosaic Idealize.ShloMosaic.TcCoe Idealize.SL.Sem
open Idealize.ShloMosaic.StableHlo
open Idealize.ShloMosaic.ValueIdx Cert.Gcn
open Idealize.ShloMosaic.Pipeline (Dat)

variable (m : (ℓ : Loc nD τ sig) → Buf (Elt Ideal) ℓ) (ρ : Dev nD → PrngReg) (c : Dev nD)

/-! ## The launch contents of the arguments -/

abbrev aX : Mat 10000 512 := m ((c : Thread nD τ).loc main_arg0)
abbrev aAdj : Mat 10000 10000 := m ((c : Thread nD τ).loc main_arg1)
abbrev aW0 : Mat 512 512 := m ((c : Thread nD τ).loc main_arg2)
abbrev aB0 : Row 512 := m ((c : Thread nD τ).loc main_arg3)
abbrev aW1 : Mat 512 512 := m ((c : Thread nD τ).loc main_arg4)
abbrev aB1 : Row 512 := m ((c : Thread nD τ).loc main_arg5)
abbrev aW2 : Mat 512 40 := m ((c : Thread nD τ).loc main_arg6)
abbrev aB2 : Row 40 := m ((c : Thread nD τ).loc main_arg7)

/-- The supports of the three layers. -/
abbrev s0 : Mat 10000 512 := mm (aX m c) (aW0 m c)
abbrev s1 : Mat 10000 512 := hidden (aAdj m c) (s0 m c) (asRow (aB0 m c)) (aW1 m c)
abbrev s2 : Mat 10000 40 := hidden (aAdj m c) (s1 m c) (asRow (aB1 m c)) (aW2 m c)

/-- A vector laid out as a one-row matrix reads, at `(0, q)`, its entry `q`. -/
theorem reshape_row {b : ℕ} (v : Row b) (h : (⟨1, ![b]⟩ : Shape).ShapeCasts ⟨2, ![1, b]⟩) :
    (fun i => shapeCast ⟨2, ![1, b]⟩ v h i) = asRow v := by
  funext i
  obtain ⟨u, q, rfl⟩ : ∃ (u : Fin 1) (q : Fin b), i = ix2 u q := ⟨i 0, i 1, eq_ix2 i⟩
  exact shapeCast_a_1a_apply v h u q

theorem hidden_congr {n h k : ℕ} {A A' : Mat n n} {S S' : Mat n h} {r r' : Mat 1 h} {W W' : Mat h k}
    (hA : A = A') (hS : S = S') (hr : r = r') (hW : W = W') : hidden A S r W = hidden A' S' r' W' := by
  rw [hA, hS, hr, hW]

theorem outLayer_congr {n k : ℕ} {A A' : Mat n n} {S S' : Mat n k} {r r' : Mat 1 k}
    (hA : A = A') (hS : S = S') (hr : r = r') : outLayer A S r = outLayer A' S' r' := by
  rw [hA, hS, hr]

/-! ## Before the first launch: the weights of layer 0 in the narrower format -/

theorem x_1 : (V1 m ρ c main_arg0 : Mat 10000 512) = aX m c := by
  show StableHlo.after hostOps0 (W0 m ρ c) (Proc.devRef .tc main_arg0) = _
  dsimp only [hostOps0]
  after_results <;> rfl

theorem w0_1 : (V1 m ρ c main_call0_v0 : Mat 512 512) = aW0 m c := by
  show StableHlo.after hostOps0 (W0 m ρ c) (Proc.devRef .tc main_call0_v0) = _
  dsimp only [hostOps0]
  after_results <;> rfl

theorem adj_1 : (W1 m ρ c (Proc.devRef .tc main_arg1) : Mat 10000 10000) = aAdj m c := by
  show StableHlo.after hostOps0 (W0 m ρ c) (Proc.devRef .tc main_arg1) = _
  dsimp only [hostOps0]
  after_results <;> rfl

theorem b0_1 : (W1 m ρ c (Proc.devRef .tc main_arg3) : Row 512) = aB0 m c := by
  show StableHlo.after hostOps0 (W0 m ρ c) (Proc.devRef .tc main_arg3) = _
  dsimp only [hostOps0]
  after_results <;> rfl

theorem w1_1 : (W1 m ρ c (Proc.devRef .tc main_arg4) : Mat 512 512) = aW1 m c := by
  show StableHlo.after hostOps0 (W0 m ρ c) (Proc.devRef .tc main_arg4) = _
  dsimp only [hostOps0]
  after_results <;> rfl

theorem b1_1 : (W1 m ρ c (Proc.devRef .tc main_arg5) : Row 512) = aB1 m c := by
  show StableHlo.after hostOps0 (W0 m ρ c) (Proc.devRef .tc main_arg5) = _
  dsimp only [hostOps0]
  after_results <;> rfl

theorem w2_1 : (W1 m ρ c (Proc.devRef .tc main_arg6) : Mat 512 40) = aW2 m c := by
  show StableHlo.after hostOps0 (W0 m ρ c) (Proc.devRef .tc main_arg6) = _
  dsimp only [hostOps0]
  after_results <;> rfl

theorem b2_1 : (W1 m ρ c (Proc.devRef .tc main_arg7) : Row 40) = aB2 m c := by
  show StableHlo.after hostOps0 (W0 m ρ c) (Proc.devRef .tc main_arg7) = _
  dsimp only [hostOps0]
  after_results <;> rfl

/-! ## After the first launch: the support of layer 0 -/

theorem s0_2 : (W2 m ρ c (Proc.devRef .tc main_call0_v1) : Mat 10000 512) = s0 m c :=
  (W2_arr m ρ c 2).trans ((Region0.final (V1 m ρ) c).trans (congrArg₂ mm (x_1 m ρ c) (w0_1 m ρ c)))

theorem adj_2 : (W2 m ρ c (Proc.devRef .tc main_arg1) : Mat 10000 10000) = aAdj m c :=
  (W2_of_ne m ρ c main_arg1 (by decide)).trans (adj_1 m ρ c)
theorem b0_2 : (W2 m ρ c (Proc.devRef .tc main_arg3) : Row 512) = aB0 m c :=
  (W2_of_ne m ρ c main_arg3 (by decide)).trans (b0_1 m ρ c)
theorem w1_2 : (W2 m ρ c (Proc.devRef .tc main_arg4) : Mat 512 512) = aW1 m c :=
  (W2_of_ne m ρ c main_arg4 (by decide)).trans (w1_1 m ρ c)
theorem b1_2 : (W2 m ρ c (Proc.devRef .tc main_arg5) : Row 512) = aB1 m c :=
  (W2_of_ne m ρ c main_arg5 (by decide)).trans (b1_1 m ρ c)
theorem w2_2 : (W2 m ρ c (Proc.devRef .tc main_arg6) : Mat 512 40) = aW2 m c :=
  (W2_of_ne m ρ c main_arg6 (by decide)).trans (w2_1 m ρ c)
theorem b2_2 : (W2 m ρ c (Proc.devRef .tc main_arg7) : Row 40) = aB2 m c :=
  (W2_of_ne m ρ c main_arg7 (by decide)).trans (b2_1 m ρ c)

/-! ## Before the second launch: the bias of layer 0 as a row, the weights of layer 1 -/

theorem adj_3 : (V3 m ρ c main_arg1 : Mat 10000 10000) = aAdj m c := by
  show StableHlo.after hostOps1 (W2 m ρ c) (Proc.devRef .tc main_arg1) = _
  dsimp only [hostOps1]
  after_results
  exact adj_2 m ρ c

theorem s0_3 : (V3 m ρ c main_call0_v1 : Mat 10000 512) = s0 m c := by
  show StableHlo.after hostOps1 (W2 m ρ c) (Proc.devRef .tc main_call0_v1) = _
  dsimp only [hostOps1]
  after_results
  exact s0_2 m ρ c

theorem b0_3 : (V3 m ρ c main_call0_v2 : Mat 1 512) = asRow (aB0 m c) := by
  show StableHlo.after hostOps1 (W2 m ρ c) (Proc.devRef .tc main_call0_v2) = _
  dsimp only [hostOps1]
  after_results
  rw [b0_2 m ρ c]
  exact reshape_row _ _

theorem w1_3 : (V3 m ρ c main_call0_v3 : Mat 512 512) = aW1 m c := by
  show StableHlo.after hostOps1 (W2 m ρ c) (Proc.devRef .tc main_call0_v3) = _
  dsimp only [hostOps1]
  after_results
  rw [w1_2 m ρ c]
  rfl

theorem b1_3 : (W3 m ρ c (Proc.devRef .tc main_arg5) : Row 512) = aB1 m c := by
  show StableHlo.after hostOps1 (W2 m ρ c) (Proc.devRef .tc main_arg5) = _
  dsimp only [hostOps1]
  after_results
  exact b1_2 m ρ c
theorem w2_3 : (W3 m ρ c (Proc.devRef .tc main_arg6) : Mat 512 40) = aW2 m c := by
  show StableHlo.after hostOps1 (W2 m ρ c) (Proc.devRef .tc main_arg6) = _
  dsimp only [hostOps1]
  after_results
  exact w2_2 m ρ c
theorem b2_3 : (W3 m ρ c (Proc.devRef .tc main_arg7) : Row 40) = aB2 m c := by
  show StableHlo.after hostOps1 (W2 m ρ c) (Proc.devRef .tc main_arg7) = _
  dsimp only [hostOps1]
  after_results
  exact b2_2 m ρ c

/-! ## After the second launch: the support of layer 1 and the adjacency copy -/

theorem s1_4 : (W4 m ρ c (Proc.devRef .tc main_call0_v4_0) : Mat 10000 512) = s1 m c :=
  (W4_arr m ρ c 4).trans ((Region1.final (V3 m ρ) c).trans
    (hidden_congr (adj_3 m ρ c) (s0_3 m ρ c) (b0_3 m ρ c) (w1_3 m ρ c)))

theorem adjb_4 : (W4 m ρ c (Proc.devRef .tc main_call0_v4_1) : Mat 10000 10000) = aAdj m c :=
  (W4_arr m ρ c 5).trans ((Region1.final_copy (V3 m ρ) c).trans (adj_3 m ρ c))

theorem b1_4 : (W4 m ρ c (Proc.devRef .tc main_arg5) : Row 512) = aB1 m c :=
  (W4_of_ne m ρ c main_arg5 (by decide)).trans (b1_3 m ρ c)
theorem w2_4 : (W4 m ρ c (Proc.devRef .tc main_arg6) : Mat 512 40) = aW2 m c :=
  (W4_of_ne m ρ c main_arg6 (by decide)).trans (w2_3 m ρ c)
theorem b2_4 : (W4 m ρ c (Proc.devRef .tc main_arg7) : Row 40) = aB2 m c :=
  (W4_of_ne m ρ c main_arg7 (by decide)).trans (b2_3 m ρ c)

/-! ## Before the third launch: the bias of layer 1 as a row, the weights of layer 2 -/

theorem adjb_5 : (V5 m ρ c main_call0_v4_1 : Mat 10000 10000) = aAdj m c := by
  show StableHlo.after hostOps2 (W4 m ρ c) (Proc.devRef .tc main_call0_v4_1) = _
  dsimp only [hostOps2]
  after_results
  exact adjb_4 m ρ c

theorem s1_5 : (V5 m ρ c main_call0_v4_0 : Mat 10000 512) = s1 m c := by
  show StableHlo.after hostOps2 (W4 m ρ c) (Proc.devRef .tc main_call0_v4_0) = _
  dsimp only [hostOps2]
  after_results
  exact s1_4 m ρ c

theorem b1_5 : (V5 m ρ c main_call0_v5 : Mat 1 512) = asRow (aB1 m c) := by
  show StableHlo.after hostOps2 (W4 m ρ c) (Proc.devRef .tc main_call0_v5) = _
  dsimp only [hostOps2]
  after_results
  rw [b1_4 m ρ c]
  exact reshape_row _ _

theorem w2_5 : (V5 m ρ c main_call0_v6 : Mat 512 40) = aW2 m c := by
  show StableHlo.after hostOps2 (W4 m ρ c) (Proc.devRef .tc main_call0_v6) = _
  dsimp only [hostOps2]
  after_results
  rw [w2_4 m ρ c]
  rfl

theorem b2_5 : (W5 m ρ c (Proc.devRef .tc main_arg7) : Row 40) = aB2 m c := by
  show StableHlo.after hostOps2 (W4 m ρ c) (Proc.devRef .tc main_arg7) = _
  dsimp only [hostOps2]
  after_results
  exact b2_4 m ρ c

/-! ## After the third launch: the support of layer 2 -/

theorem s2_6 : (W6 m ρ c (Proc.devRef .tc main_call0_v7) : Mat 10000 40) = s2 m c :=
  (W6_arr m ρ c 4).trans ((Region2.final (V5 m ρ) c).trans
    (hidden_congr (adjb_5 m ρ c) (s1_5 m ρ c) (b1_5 m ρ c) (w2_5 m ρ c)))

/-- The adjacency copy is an input of the third launch: it is left as found. -/
theorem adjb_6 : (W6 m ρ c (Proc.devRef .tc main_call0_v4_1) : Mat 10000 10000) = aAdj m c :=
  (W6_arr m ρ c 0).trans (((dat2 (V5 m ρ) c).arrAt_in 0 rfl _).trans ((A_eq2 (V5 m ρ) c 0).trans (adjb_5 m ρ c)))

theorem b2_6 : (W6 m ρ c (Proc.devRef .tc main_arg7) : Row 40) = aB2 m c :=
  (W6_of_ne m ρ c main_arg7 (by decide)).trans (b2_5 m ρ c)

/-! ## Before the fourth launch: the bias of layer 2 as a row -/

theorem adjb_7 : (V7 m ρ c main_call0_v4_1 : Mat 10000 10000) = aAdj m c := by
  show StableHlo.after hostOps3 (W6 m ρ c) (Proc.devRef .tc main_call0_v4_1) = _
  dsimp only [hostOps3]
  after_results
  exact adjb_6 m ρ c

theorem s2_7 : (V7 m ρ c main_call0_v7 : Mat 10000 40) = s2 m c := by
  show StableHlo.after hostOps3 (W6 m ρ c) (Proc.devRef .tc main_call0_v7) = _
  dsimp only [hostOps3]
  after_results
  exact s2_6 m ρ c

theorem b2_7 : (V7 m ρ c main_call0_v8 : Mat 1 40) = asRow (aB2 m c) := by
  show StableHlo.after hostOps3 (W6 m ρ c) (Proc.devRef .tc main_call0_v8) = _
  dsimp only [hostOps3]
  after_results
  rw [b2_6 m ρ c]
  exact reshape_row _ _

/-! ## After the fourth launch: the result -/

/-- The result buffer ends at the network of the specification, applied to the launch contents of the arguments. -/
theorem result : (W8 m ρ c (Proc.devRef .tc main_v0) : Mat 10000 40)
    = gcn (aX m c) (aAdj m c) (aW0 m c) (aB0 m c) (aW1 m c) (aB1 m c) (aW2 m c) (aB2 m c) :=
  (W8_arr m ρ c 3).trans ((Region3.final (V7 m ρ) c).trans
    (outLayer_congr (adjb_7 m ρ c) (s2_7 m ρ c) (b2_7 m ρ c)))

end Cert.Gcn.Fold

end
-- ==== Proof.LibHostRows.lean ====
/-
  Host operations on rank-2 arrays read at an entry, over the extended reals: a plain matrix product
  (`dot_general` M×K by K×N) as the sum over the contracted coordinate; the `broadcast_in_dim` forms of a
  keep-dimensions reduction ([b]→[1,b], [1,b]→[a,b], [a]→[a,1], [a,1]→[a,b], scalar→any); a rank-3 array cut
  along its leading axis; and a host sum along the rows of a matrix as the initial value plus the row's sum.
-/
import proofs.«160582_g51960514347202_cont_8to1_c_266_19_alg».proof.Proof.LibPlainDot
import Idealize.ShloMosaic.Lib.Pipeline.Value
import Idealize.ShloMosaic.Lib.ValueIdx
import Idealize.ShloMosaic.PureOps.Ideal.Laws

namespace Cert.LibHostRows

open Idealize.ShloMosaic Idealize.ShloMosaic.ValueIdx

variable {α : Type}

/-- Entry `(p, q)` of the host's plain product is `∑ c, lhs (p, c) · rhs (c, q)`. -/
theorem dotGeneral_plain_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q) = ∑ c : Fin K, lhs (ix2 p c) * rhs (ix2 c q) := by
  show FloatOps.dotGeneral (DotDims.plain M K N) prec .single lhs rhs (ix2 p q) = _
  rw [Ideal.dotGeneral_apply, ← Equiv.sum_comp (contrEquiv1 (DotDims.plain M K N) K rfl rfl).symm]
  refine Finset.sum_congr rfl fun c _ => ?_
  rw [Cert.LibPlainDot.plain_lhsIdx, Cert.LibPlainDot.plain_rhsIdx]

/-- A vector `[b]` placed as the one row of `[1, b]` reads, at `(u, c)`, the vector's entry `c`. -/
theorem broadcastInDim_b_1b_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ (![1] : Fin 1 → Fin 2) h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` repeated down `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` placed as the one column of `[a, 1]` reads, at `(p, u)`, the vector's entry `p`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` repeated along `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape reads the scalar everywhere. -/
theorem broadcastInDim_scalar_apply {t : Shape} (v : (⟨0, ![]⟩ : Shape).Idx → α)
    (h : (⟨0, ![]⟩ : Shape).BroadcastsInDim t (![] : Fin 0 → Fin t.rank)) (j : t.Idx) :
    broadcastInDim t (![] : Fin 0 → Fin t.rank) h v j = v ix0 :=
  broadcastInDim_apply _ h v j ix0 fun ax => ax.elim0

/-- A rank-3 array cut along its leading axis from `o` reads, at `(j, d, e)`, the source at `(k, d, e)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (d : Fin n1) (e : Fin n2) (k : Fin n0) (hk : k.val = o + j.val) :
    extractStridedSlice ⟨3, ![m, n1, n2]⟩ ![o, 0, 0] X h (ix3 j d e) = X (ix3 k d e) :=
  extractStridedSlice_apply _ _ _ _ _ (fun ax => by
    match ax with
    | ⟨0, _⟩ => exact hk
    | ⟨1, _⟩ => exact (Nat.zero_add _).symm
    | ⟨2, _⟩ => exact (Nat.zero_add _).symm)

/-- The host's sum of a matrix along its rows, read at row `p`: the initial value plus the sum of the row. -/
theorem hostReduceAdd_rows_apply {φ : FTy} {a b : ℕ} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (p : Fin a) :
    Host.reduceAdd (F := Ideal) x init h hu (ix1 p) = init ix0 + ∑ k : Fin b, x (ix2 p k) := by
  show Ideal.hostReduceAdd h x (init (Shape.Idx.first hu)) (ix1 p) = _
  rw [Ideal.hostReduceAdd_single h ⟨h.1, Nat.one_pos, h.2⟩ x _ (ix1 p), eq_ix0 (Shape.Idx.first hu)]
  refine congrArg (init ix0 + ·) (Finset.sum_congr rfl fun k _ => congrArg x ?_)
  funext d
  match d with
  | ⟨0, _⟩ => rfl
  | ⟨1, _⟩ => rfl

end Cert.LibHostRows
-- ==== Proof.Ref.lean ====
/-
  The reference program's result is the network of the specification. On the host a matrix product is the plain sum over
  the contracted coordinate, a bias vector is laid out as one row and repeated down the rows, and relu is the maximum with
  a zero spread over the matrix; read entry by entry these are the specification's product, row addition and positive part.
-/
import proofs.«160582_g51960514347202_cont_8to1_c_266_19_alg».proof.Proof.Gen.ReferenceIdeal
import proofs.«160582_g51960514347202_cont_8to1_c_266_19_alg».proof.Proof.LibHostRows
import proofs.«160582_g51960514347202_cont_8to1_c_266_19_alg».proof.Proof.Spec
import Idealize.ShloMosaic.Lib.ValueIdx
import Idealize.ShloMosaic.PureOps.Ideal.Laws

noncomputable section

namespace Cert.Gcn.Ref

open Cert.ReferenceIdeal Cert.ReferenceIdeal.Gen Idealize.ShloMosaic Idealize.ShloMosaic.ValueIdx Cert.Gcn
open Cert.LibHostRows
open scoped BigOperators

/-! ## The four products -/

theorem dot_feat (A : FVec Ideal S10000x512 .f32) (B : FVec Ideal S512x512 .f32) :
    Host.dotGeneral dot_S10000x512_S512x512_S10000x512_1_0_0_1_n_n none A B = mm (a := 10000) (k := 512) (b := 512) A B := by
  funext i
  obtain ⟨p, q, rfl⟩ : ∃ (p : Fin 10000) (q : Fin 512), i = ix2 p q := ⟨i 0, i 1, eq_ix2 i⟩
  exact dotGeneral_plain_apply 10000 512 512 none A B p q

theorem dot_adj (A : FVec Ideal S10000x10000 .f32) (B : FVec Ideal S10000x512 .f32) :
    Host.dotGeneral dot_S10000x10000_S10000x512_S10000x512_1_0_0_1_n_n none A B = mm (a := 10000) (k := 10000) (b := 512) A B := by
  funext i
  obtain ⟨p, q, rfl⟩ : ∃ (p : Fin 10000) (q : Fin 512), i = ix2 p q := ⟨i 0, i 1, eq_ix2 i⟩
  exact dotGeneral_plain_apply 10000 10000 512 none A B p q

theorem dot_cls (A : FVec Ideal S10000x512 .f32) (B : FVec Ideal S512x40 .f32) :
    Host.dotGeneral dot_S10000x512_S512x40_S10000x40_1_0_0_1_n_n none A B = mm (a := 10000) (k := 512) (b := 40) A B := by
  funext i
  obtain ⟨p, q, rfl⟩ : ∃ (p : Fin 10000) (q : Fin 40), i = ix2 p q := ⟨i 0, i 1, eq_ix2 i⟩
  exact dotGeneral_plain_apply 10000 512 40 none A B p q

theorem dot_adj_cls (A : FVec Ideal S10000x10000 .f32) (B : FVec Ideal S10000x40 .f32) :
    Host.dotGeneral dot_S10000x10000_S10000x40_S10000x40_1_0_0_1_n_n none A B = mm (a := 10000) (k := 10000) (b := 40) A B := by
  funext i
  obtain ⟨p, q, rfl⟩ : ∃ (p : Fin 10000) (q : Fin 40), i = ix2 p q := ⟨i 0, i 1, eq_ix2 i⟩
  exact dotGeneral_plain_apply 10000 10000 40 none A B p q

/-! ## Bias and relu -/

/-- Adding the bias vector, laid out as a row and repeated down the rows, adds entry `q` of the vector in column `q`. -/
theorem bias_hidden (M : FVec Ideal S10000x512 .f32) (b : FVec Ideal S512 .f32) :
    addf M (broadcastInDim S10000x512 ![0, 1] bcast_S1x512_S10000x512_0_1 (broadcastInDim S1x512 ![1] bcast_S512_S1x512_1 b))
      = addRow (a := 10000) (b := 512) M (asRow b) := by
  funext i
  obtain ⟨p, q, rfl⟩ : ∃ (p : Fin 10000) (q : Fin 512), i = ix2 p q := ⟨i 0, i 1, eq_ix2 i⟩
  refine congrArg (M (ix2 p q) + ·) ?_
  refine (broadcastInDim_1b_ab_apply _ _ p q).trans ?_
  exact broadcastInDim_b_1b_apply _ _ (0 : Fin 1) q

theorem bias_out (M : FVec Ideal S10000x40 .f32) (b : FVec Ideal S40 .f32) :
    addf M (broadcastInDim S10000x40 ![0, 1] bcast_S1x40_S10000x40_0_1 (broadcastInDim S1x40 ![1] bcast_S40_S1x40_1 b))
      = addRow (a := 10000) (b := 40) M (asRow b) := by
  funext i
  obtain ⟨p, q, rfl⟩ : ∃ (p : Fin 10000) (q : Fin 40), i = ix2 p q := ⟨i 0, i 1, eq_ix2 i⟩
  refine congrArg (M (ix2 p q) + ·) ?_
  refine (broadcastInDim_1b_ab_apply _ _ p q).trans ?_
  exact broadcastInDim_b_1b_apply _ _ (0 : Fin 1) q

/-- The maximum with the zero constant spread over the matrix is the positive part. -/
theorem relu_host (M : FVec Ideal S10000x512 .f32) :
    maximumf M (broadcastInDim S10000x512 ![] bcast_S_S10000x512 (constant S_ .f32 0x00000000#32))
      = relu (a := 10000) (b := 512) M := by
  funext i
  refine congrArg (max (M i)) ?_
  refine (broadcastInDim_scalar_apply _ _ i).trans ?_
  exact Ideal.ofBits_zero_f32

/-! ## The whole reference -/

/-- The reference's composed term is the specification's network of the same arrays. -/
theorem result_eq (x : FVec Ideal S10000x512 .f32) (adj : FVec Ideal S10000x10000 .f32) (W0 : FVec Ideal S512x512 .f32)
    (b0 : FVec Ideal S512 .f32) (W1 : FVec Ideal S512x512 .f32) (b1 : FVec Ideal S512 .f32) (W2 : FVec Ideal S512x40 .f32)
    (b2 : FVec Ideal S40 .f32) :
    addf (Host.dotGeneral dot_S10000x10000_S10000x40_S10000x40_1_0_0_1_n_n none adj (Host.dotGeneral dot_S10000x512_S512x40_S10000x40_1_0_0_1_n_n none (maximumf (addf (Host.dotGeneral dot_S10000x10000_S10000x512_S10000x512_1_0_0_1_n_n none adj (Host.dotGeneral dot_S10000x512_S512x512_S10000x512_1_0_0_1_n_n none (maximumf (addf (Host.dotGeneral dot_S10000x10000_S10000x512_S10000x512_1_0_0_1_n_n none adj (Host.dotGeneral dot_S10000x512_S512x512_S10000x512_1_0_0_1_n_n none x W0)) (broadcastInDim S10000x512 ![0, 1] bcast_S1x512_S10000x512_0_1 (broadcastInDim S1x512 ![1] bcast_S512_S1x512_1 b0))) (broadcastInDim S10000x512 ![] bcast_S_S10000x512 (constant S_ .f32 0x00000000#32))) W1)) (broadcastInDim S10000x512 ![0, 1] bcast_S1x512_S10000x512_0_1 (broadcastInDim S1x512 ![1] bcast_S512_S1x512_1 b1))) (broadcastInDim S10000x512 ![] bcast_S_S10000x512 (constant S_ .f32 0x00000000#32))) W2)) (broadcastInDim S10000x40 ![0, 1] bcast_S1x40_S10000x40_0_1 (broadcastInDim S1x40 ![1] bcast_S40_S1x40_1 b2))
      = gcn x adj W0 b0 W1 b1 W2 b2 := by
  rw [dot_feat x W0, dot_adj, bias_hidden, relu_host, dot_feat, dot_adj, bias_hidden, relu_host, dot_cls, dot_adj_cls, bias_out]
  rfl

end Cert.Gcn.Ref

end
-- ==== Proof.lean ====
/-
  A three-layer graph convolution on 10000 nodes, computed by four kernel launches, against the plain jnp network.

  Both programs compute, over the extended reals,
      H1 = relu (A · (X · W0) + b0),   H2 = relu (A · (H1 · W1) + b1),   out = A · (H2 · W2) + b2
  (Proof/Spec.lean). The kernel program forms X · W0 in the first launch and fuses each hidden layer with the next
  layer's weights: a launch takes a block of rows of A, multiplies it by the whole support S, adds the bias row, takes the
  positive part and multiplies by the next weights, so the support it leaves is relu (A · S + b) · W — the same bracketing as
  the reference's, row block by row block. The roundings to a narrower format in the kernel are the identity on extended
  reals, the copy of A the second launch keeps is A, and a product into a zero accumulator is the plain sum. No sum is
  rearranged, so the precondition is never opened.

  Proof/Pay.lean reads each body's stored block entry by entry; Proof/Region0 … Region3.lean turn the blocks a launch writes
  into the whole array it leaves, as a function of the arrays it found; Proof/Fold.lean follows the buffers from launch to
  launch back to the arguments; Proof/Run.lean is the kernel program's run with its result named; Proof/Ref.lean reads
  the reference's result as the same function.
-/
import proofs.«160582_g51960514347202_cont_8to1_c_266_19_alg».proof.Defs
import proofs.«160582_g51960514347202_cont_8to1_c_266_19_alg».proof.Proof.Gen.Kernel
import proofs.«160582_g51960514347202_cont_8to1_c_266_19_alg».proof.Proof.Gen.Kernel.Skeleton
import proofs.«160582_g51960514347202_cont_8to1_c_266_19_alg».proof.Proof.Gen.Kernel.Launch
import proofs.«160582_g51960514347202_cont_8to1_c_266_19_alg».proof.Proof.Gen.Kernel.Points
import proofs.«160582_g51960514347202_cont_8to1_c_266_19_alg».proof.Proof.Gen.Kernel.Frame
import proofs.«160582_g51960514347202_cont_8to1_c_266_19_alg».proof.Proof.Gen.KernelIdeal
import proofs.«160582_g51960514347202_cont_8to1_c_266_19_alg».proof.Proof.Gen.KernelIdeal.Skeleton
import proofs.«160582_g51960514347202_cont_8to1_c_266_19_alg».proof.Proof.Gen.KernelIdeal.Launch
import proofs.«160582_g51960514347202_cont_8to1_c_266_19_alg».proof.Proof.Gen.KernelIdeal.Points
import proofs.«160582_g51960514347202_cont_8to1_c_266_19_alg».proof.Proof.Gen.KernelIdeal.Frame
import proofs.«160582_g51960514347202_cont_8to1_c_266_19_alg».proof.Proof.Gen.ReferenceIdeal
import proofs.«160582_g51960514347202_cont_8to1_c_266_19_alg».proof.Proof.Gen.ReferenceIdeal.Run
import proofs.«160582_g51960514347202_cont_8to1_c_266_19_alg».proof.Proof.Gen.Pre_finite_inputs
import proofs.«160582_g51960514347202_cont_8to1_c_266_19_alg».proof.Proof.Run
import proofs.«160582_g51960514347202_cont_8to1_c_266_19_alg».proof.Proof.Fold
import proofs.«160582_g51960514347202_cont_8to1_c_266_19_alg».proof.Proof.Ref
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network of the specification applied to the arguments: the kernel program by the fold
    through its four launches, the reference by reading its composed term. -/
theorem algebraic : Cert.algebraic_KernelIdeal_ReferenceIdeal := by
  intro m ρ m' ρ' _ hagree
  refine ⟨fun c => Cert.Gcn.gcn (Cert.Gcn.Fold.aX m c) (Cert.Gcn.Fold.aAdj m c) (Cert.Gcn.Fold.aW0 m c) (Cert.Gcn.Fold.aB0 m c)
    (Cert.Gcn.Fold.aW1 m c) (Cert.Gcn.Fold.aB1 m c) (Cert.Gcn.Fold.aW2 m c) (Cert.Gcn.Fold.aB2 m c), ?_, ?_⟩
  · exact (θ_run Cert.KernelIdeal.defs _ _).mono
      (fun r h c => ⟨(h c).1.trans (Cert.Gcn.Fold.result m ρ c), (h c).2⟩) (Cert.Gcn.Run.run_named m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact Cert.Gcn.Ref.result_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
